-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel

variable [Facts]

def fn {F : FTy → Type} [FloatOps F] (main_arg0 : FVec F S8x2048x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  main_v3
-- ==== Kernel.lean ====
abbrev S8x2048x256 : Shape := ⟨3, ![8, 2048, 256]⟩
abbrev S8x2048x2048 : Shape := ⟨3, ![8, 2048, 2048]⟩
abbrev S1x2048x256 : Shape := ⟨3, ![1, 2048, 256]⟩
abbrev S1x1024x2048 : Shape := ⟨3, ![1, 1024, 2048]⟩
abbrev S2048x256 : Shape := ⟨2, ![2048, 256]⟩
abbrev S1x1024x256 : Shape := ⟨3, ![1, 1024, 256]⟩
abbrev S1024x256 : Shape := ⟨2, ![1024, 256]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S1x1024x2048, .f32⟩
  | .local _ .vmem, ⟨3, _⟩ => ⟨S1x1024x2048, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 3 → Nat :=
  let c0_2 : Index := 0#32
  let arg1 : BitVec 32 := BitVec.ofNat 32 (i 1).val
  let c1024_i32 : BitVec 32 := 1024#32
  let v0 : BitVec 32 := Scalar.muli arg1 c1024_i32
  let v1 : BitVec 32 := v0
  let v4 : Index := Scalar.indexCast v1
  let c0_3 : Index := 0#32
  ![0, v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  h_S1x1024x256 : 0 < S1x1024x256.numel
  shapeCasts_S1x1024x256_S1024x256 : S1x1024x256.ShapeCasts S1024x256
  bitsLt_bf16_f32 : FTy.bits .bf16 < FTy.bits .f32
  reduces_S1024x256_S1024 : S1024x256.Reduces [1] S1024
  shapeCasts_S1024_S1024x1 : S1024.ShapeCasts S1024x1
  reduces_S2048x256_S2048 : S2048x256.Reduces [1] S2048
  shapeCasts_S2048_S1x2048 : S2048.ShapeCasts S1x2048
  broadcasts_S1024x1_S1024x2048 : S1024x1.Broadcasts S1024x2048
  broadcasts_S1x2048_S1024x2048 : S1x2048.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  dot_S1024x256_S2048x256_S1024x2048_1_1_0_0_n_n_wf : DotDims.WF S1024x256 S2048x256 S1024x2048 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1x1024x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x2048x2048.size a
  hwx0_1 : ∀ i : grid0.Coords, EltTy.bits .f32 = 32 ∨ (Rect.block (s := S8x2048x2048) S1x1024x2048.size (cc0_transform_1 i) (hinb0_1 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S_, .f32⟩
  | .hbm, ⟨3, _⟩ => ⟨S8x2048, .f32⟩
  | .hbm, ⟨4, _⟩ => ⟨S8x2048x2048, .f32⟩
  | .hbm, ⟨5, _⟩ => ⟨S8x2048x1, .f32⟩
  | .hbm, ⟨6, _⟩ => ⟨S8x1x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S8x2048x256_S8x2048_d2 : S8x2048x256.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  dot_S8x2048x256_S8x2048x256_S8x2048x2048_2_2_1_1_0_0_wf : DotDims.WF S8x2048x256 S8x2048x256 S8x2048x2048 [2] [2] [1] [1] [0] [0]

variable [Facts₀]

def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf

class Facts : Prop extends Facts₀ where

variable [Facts]
-- ==== Proof.LibDotRows.lean ====
/-
  A matrix product whose right operand is contracted on its LAST axis (A · Bᵀ for an m×k matrix A and an n×k
  matrix B), accumulated into a zero splat and read at an index on the extended reals:
  (A · Bᵀ)[a, b] = Σ_c A[a, c] · B[b, c].
-/
import Idealize.ShloMosaic.PureOps.Ideal.Laws
import Idealize.ShloMosaic.Lib.ValueIdx

noncomputable section

namespace Cert.LibDotRows

open Idealize.ShloMosaic Idealize.ShloMosaic.ValueIdx

/-- The product with the right operand contracted on its last axis, into the zero accumulator, at (a, b):
    the sum over the contracted coordinate of the products of the two rows' entries. -/
theorem matmul_transposedRhs_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  show FloatOps.matmul (DotDims.transposedRhs m k n) prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibDotRows

end
-- ==== Proof.LibKeepdims.lean ====
/-
  A per-row value kept as a column: a length-`a` vector cast to an `[a, 1]` matrix, and an `[a, 1]` matrix
  broadcast along its rows to `[a, b]`, each read at an index given by its coordinates.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims
-- ==== Proof.Payload.lean ====
/-
  What the kernel body computes, read at one entry of its output block. The body holds one whole matrix (2048 rows of 256
  entries) and a band of 1024 of its rows; at row `a` of the band and column `j` it stores
      max ((Σ_c band[a, c]² + Σ_c whole[j, c]²) − 2 · Σ_c band[a, c] · whole[j, c]) 0:
  the band row's squared norm kept as a column, the whole matrix's squared row norms kept as a row, the product of the
  band with the whole matrix contracted over the 256 entries of a row, and, on the extended reals, the narrowing of the
  product's operands to sixteen bits the identity.
-/
import proofs.«110184_j67018669686961_2_alg».proof.Proof.Gen.KernelIdeal.Skeleton
import proofs.«110184_j67018669686961_2_alg».proof.Proof.LibDotRows
import proofs.«110184_j67018669686961_2_alg».proof.Proof.LibKeepdims
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- A sum along the rows of an `n × k` matrix, read at row `a`: the sum of that row's `k` entries. -/
theorem rowSum_apply {n k : Nat} (src : FVec Ideal ⟨2, ![n, k]⟩ .f32)
    (h : (⟨2, ![n, k]⟩ : Shape).Reduces [1] ⟨1, ![n]⟩) (hφ : FKind.Formats .f32)
    (hacc : (0x00000000#32 : BitVec FTy.f32.bits) = FKind.add.neutral .f32 hφ) (a : Fin n) :
    multiReduction .add [1] ⟨1, ![n]⟩ src 0x00000000#32 h hφ hacc (ix1 a) = ∑ c : Fin k, src (ix2 a c) := by
  refine (Ideal.multiReduction_add_single src _ h hφ hacc (ix1 a)).trans ?_
  refine Finset.sum_congr rfl fun c _ => congrArg src ?_
  funext ax; apply Fin.ext
  match ax with
  | ⟨0, _⟩ => rfl
  | ⟨1, _⟩ => rfl

/-- The band's squared row norms, kept as a column and spread along the columns, read at `(a, j)`: the squared norm of
    band row `a`. -/
theorem colNorm_apply (v6 : FVec Ideal S1024x256 .f32) (a : Fin 1024) (j : Fin 2048) :
    broadcastTo S1024x2048 (shapeCast S1024x1 (multiReduction .add [1] S1024 (mulf v6 v6) 0x00000000#32
        reduces_S1024x256_S1024 (.inl rfl) rfl) shapeCasts_S1024_S1024x1) broadcasts_S1024x1_S1024x2048 (ix2 a j)
      = ∑ c : Fin 256, v6 (ix2 a c) * v6 (ix2 a c) :=
  (Keepdims.broadcastTo_a1_ab_apply _ _ a j).trans
    ((Keepdims.shapeCast_a_a1_apply _ _ a 0).trans (rowSum_apply (mulf v6 v6) _ _ _ a))

/-- The whole matrix's squared row norms, kept as a row and spread down the rows, read at `(a, j)`: the squared norm of
    row `j`. -/
theorem rowNorm_apply (v3 : FVec Ideal S2048x256 .f32) (a : Fin 1024) (j : Fin 2048) :
    broadcastTo S1024x2048 (shapeCast S1x2048 (multiReduction .add [1] S2048 (mulf v3 v3) 0x00000000#32
        reduces_S2048x256_S2048 (.inl rfl) rfl) shapeCasts_S2048_S1x2048) broadcasts_S1x2048_S1024x2048 (ix2 a j)
      = ∑ c : Fin 256, v3 (ix2 j c) * v3 (ix2 j c) :=
  (broadcastTo_1b_ab_apply _ _ a j).trans
    ((shapeCast_a_1a_apply _ _ 0 j).trans (rowSum_apply (mulf v3 v3) _ _ _ j))

/-- The product of the band with the whole matrix, both narrowed to sixteen bits, into the zero accumulator, read at
    `(a, j)`: the inner product of band row `a` with row `j`. -/
theorem prod_apply (v6 : FVec Ideal S1024x256 .f32) (v3 : FVec Ideal S2048x256 .f32) (a : Fin 1024) (j : Fin 2048) :
    matmul dot_S1024x256_S2048x256_S1024x2048_1_1_0_0_n_n none (truncf .bf16 v6 bitsLt_bf16_f32)
        (truncf .bf16 v3 bitsLt_bf16_f32) (constant S1024x2048 .f32 0x00000000#32) (ix2 a j)
      = ∑ c : Fin 256, v6 (ix2 a c) * v3 (ix2 j c) :=
  Cert.LibDotRows.matmul_transposedRhs_apply (m := 1024) (k := 256) (n := 2048) none
    (truncf .bf16 v6 bitsLt_bf16_f32) (truncf .bf16 v3 bitsLt_bf16_f32) a j

/-- THE BODY'S STORED VALUE at entry `(a, j)` of its block, over the whole matrix `v2` and the band `v5` as loaded. -/
theorem pay_apply (v2 : Vec Ideal S1x2048x256 .f32) (v5 : Vec Ideal S1x1024x256 .f32) (u : Fin 1) (a : Fin 1024)
    (j : Fin 2048) :
    k0_pay1 (F := Ideal) v2 v5 (ix3 u a j)
      = max ((∑ c : Fin 256, v5 (ix3 (0 : Fin 1) a c) * v5 (ix3 (0 : Fin 1) a c)
              + ∑ c : Fin 256, v2 (ix3 (0 : Fin 1) j c) * v2 (ix3 (0 : Fin 1) j c))
            - Ideal.ofBits .f32 0x40000000#32 * ∑ c : Fin 256, v5 (ix3 (0 : Fin 1) a c) * v2 (ix3 (0 : Fin 1) j c))
          (Ideal.ofBits .f32 0x00000000#32) := by
  unfold k0_pay1
  dsimp only
  refine (shapeCast_ab_1ab_apply _ _ u a j).trans ?_
  have e6 : ∀ c : Fin 256, shapeCast S1024x256 v5 shapeCasts_S1x1024x256_S1024x256 (ix2 a c) = v5 (ix3 (0 : Fin 1) a c) :=
    fun c => shapeCast_1ab_ab_apply v5 _ a c
  have e3 : ∀ c : Fin 256, shapeCast S2048x256 v2 shapeCasts_S1x2048x256_S2048x256 (ix2 j c) = v2 (ix3 (0 : Fin 1) j c) :=
    fun c => shapeCast_1ab_ab_apply v2 _ j c
  refine congrArg₂ max (congrArg₂ (· - ·) (congrArg₂ (· + ·) ?_ ?_)
    (congrArg (Ideal.ofBits .f32 0x40000000#32 * ·) ?_)) rfl
  · exact (colNorm_apply _ a j).trans (Finset.sum_congr rfl fun c _ => by rw [e6 c])
  · exact (rowNorm_apply _ a j).trans (Finset.sum_congr rfl fun c _ => by rw [e3 c])
  · exact (prod_apply _ _ a j).trans (Finset.sum_congr rfl fun c _ => by rw [e6 c, e3 c])

end Cert.KernelIdeal.Body

end
-- ==== Proof.Spec.lean ====
/-
  Pairwise squared Euclidean distances between the rows of each of eight 2048 × 256 matrices, in the expanded form
      d[b, i, j] = max ((‖x_i‖² + ‖x_j‖²) − 2 · ⟨x_i, x_j⟩) 0,
  with ‖x_i‖² = Σ_k x[b, i, k]² and ⟨x_i, x_j⟩ = Σ_k x[b, i, k] · x[b, j, k], read on the extended reals. The factor 2 and
  the clamp's 0 are kept as the binary words the two programs share; nothing here evaluates them.
-/
import Idealize.ShloMosaic.PureOps.Ideal
import Idealize.ShloMosaic.Lib.ValueIdx

noncomputable section

namespace Cert.PairDist

open Idealize.ShloMosaic Idealize.ShloMosaic.ValueIdx

/-- The squared norm of row `i` of matrix `b`: the sum of the squares of its 256 entries. -/
def sqNorm (x : (⟨3, ![8, 2048, 256]⟩ : Shape).Idx → EReal) (b : Fin 8) (i : Fin 2048) : EReal :=
  ∑ k : Fin 256, x (ix3 b i k) * x (ix3 b i k)

/-- The inner product of rows `i` and `j` of matrix `b`. -/
def inner (x : (⟨3, ![8, 2048, 256]⟩ : Shape).Idx → EReal) (b : Fin 8) (i j : Fin 2048) : EReal :=
  ∑ k : Fin 256, x (ix3 b i k) * x (ix3 b j k)

/-- The clamped squared distance between rows `i` and `j` of matrix `b`, from the two squared norms and the inner
    product. -/
def distAt (x : (⟨3, ![8, 2048, 256]⟩ : Shape).Idx → EReal) (b : Fin 8) (i j : Fin 2048) : EReal :=
  max ((sqNorm x b i + sqNorm x b j) - Ideal.ofBits .f32 0x40000000#32 * inner x b i j) (Ideal.ofBits .f32 0x00000000#32)

/-- The whole array of clamped squared distances, index by index. -/
def dist (x : (⟨3, ![8, 2048, 256]⟩ : Shape).Idx → EReal) : (⟨3, ![8, 2048, 2048]⟩ : Shape).Idx → EReal :=
  fun q => distAt x (q 0) (q 1) (q 2)

/-- At an index given by its coordinates the array reads the distance between those two rows. -/
theorem dist_apply (x : (⟨3, ![8, 2048, 256]⟩ : Shape).Idx → EReal) (b : Fin 8) (i j : Fin 2048) :
    dist x (ix3 b i j) = distAt x b i j := rfl

end Cert.PairDist

end
-- ==== Proof.KernelDist.lean ====
/-
  The kernel's result array is the array of clamped squared distances.

  The grid has 8 × 2 points. Point (b, h) is given matrix b whole (an input block of 2048 × 256) and writes band h of
  matrix b's distance table (an output block of 1024 × 2048: rows 1024·h … 1024·h + 1023, every column). One run of the
  body leaves in the output block the stored value of the whole matrix and of the band of its rows that starts at row
  1024·h (`out_eq`); at row `a` and column `j` of the block that value is the clamped squared distance between rows
  1024·h + a and j of matrix b (`point_value`, over the entrywise reading of the stored value), which is the entry of
  the distance array at the block's place (`flushed_eq`). Each entry (b, i, j) of the array lies in the block of point
  (b, i / 1024) (`covered`), so the array ends as the distance array of the argument (`final`, `run`).
-/
import proofs.«110184_j67018669686961_2_alg».proof.Proof.Gen.KernelIdeal.Value
import proofs.«110184_j67018669686961_2_alg».proof.Proof.Payload
import proofs.«110184_j67018669686961_2_alg».proof.Proof.Spec
import Idealize.ShloMosaic.Lib.Pipeline.Value
import Idealize.ShloMosaic.Lib.Tactic

noncomputable section

namespace Cert.KernelIdeal.DistValue

open Cert.KernelIdeal Cert.KernelIdeal.Gen Idealize.ShloMosaic Idealize.ShloMosaic.TcCoe Idealize.SL.Sem
open Idealize.ShloMosaic.ValueIdx
open Idealize.ShloMosaic.Pipeline (Dat)

theorem hz3 : (![0, 0, 0] : Fin 3 → Nat) = fun _ => 0 := funext fun a => by fin_cases a <;> rfl

section AnyValues
variable {F : FTy → Type} [FloatOps F]

/-- What one run of the body leaves in the output's staging buffer: the stored value of the whole matrix it holds and
    of the band of rows it loads from that matrix at the point's row offset. -/
theorem out_eq (c : Dev nD) (i : grid0.Coords) (a2 : Memref sig .tc .vmem S1x2048x256 .f32) (h2 : a2.IsWhole)
    (a3 : Memref sig .tc .vmem S1x1024x2048 .f32) (h3 : a3.IsWhole) (x0 : Vec F S1x2048x256 .f32) :
    out0_A_1 c i a2 h2 a3 h3 x0
      = k0_pay1 x0 (View.ld x0 (Rect.unit (s := S1x2048x256) (k0_off1 i) S1x1024x256.size (k0_off1_inb i))) := by
  unfold out0_A_1
  rw [View.read_writes_eq_canon _ _ _ (cover0_A_1 c i a2 h2 a3 h3 x0)]
  unfold kernelRun0_A
  dsimp only
  rw [View.canon_unit_zero hz3]
  simp only [View.readAt_eq_ld, h2.read_unread, View.ld_unit_zero (S := S1x2048x256) hz3]

end AnyValues

/-- The relations between the two windows' block indices and the band's row offset, decided over the sixteen grid
    points: the input block is the whole matrix the output block belongs to; the output block is one of the two bands of
    1024 rows of that matrix's distance table, all 2048 columns wide; the band the body loads starts at the output
    band's first row. -/
theorem grid_facts : ∀ t : Fin cfg0.N,
    win0_0.index t (0 : Fin 3) = win0_1.index t (0 : Fin 3) ∧ win0_0.index t (1 : Fin 3) = 0
    ∧ win0_0.index t (2 : Fin 3) = 0 ∧ win0_1.index t (0 : Fin 3) < 8 ∧ win0_1.index t (1 : Fin 3) < 2
    ∧ win0_1.index t (2 : Fin 3) = 0 ∧ k0_off1 (grid0.coords t) = ![0, 1024 * win0_1.index t (1 : Fin 3), 0] :=
  (by decide +kernel : ∀ t : Fin grid0.N, _)

/-- Every band of every matrix's distance table is some grid point's output block. -/
theorem blocks_onto : ∀ (q0 : Fin 8) (q1 : Fin 2), ∃ t : Fin cfg0.N, win0_1.index t = ![q0.val, q1.val, 0] :=
  (by decide +kernel : ∀ (q0 : Fin 8) (q1 : Fin 2), ∃ t : Fin grid0.N, win0_1.index t = ![q0.val, q1.val, 0])

/-- ONE ENTRY OF ONE BLOCK. Let the body hold matrix `b` of the array `X` (`hx0`) and load its band at row offset `o`.
    Then the value it stores at row `a` of the band and column `j` is the clamped squared distance between rows
    `o + a` and `j` of matrix `b`. -/
theorem point_value (X : (⟨3, ![8, 2048, 256]⟩ : Shape).Idx → EReal) (x0 : Vec Ideal S1x2048x256 .f32) (b : Fin 8)
    (hx0 : ∀ (r : Fin 2048) (k : Fin 256), x0 (ix3 (0 : Fin 1) r k) = X (ix3 b r k))
    (off : Fin 3 → Nat) (inb : ∀ ax, off ax + S1x1024x256.size ax ≤ S1x2048x256.size ax) (o : Nat)
    (hoff : off = ![0, o, 0]) (u : Fin 1) (a : Fin 1024) (j : Fin 2048) (i : Fin 2048) (hi : i.val = o + a.val) :
    k0_pay1 (F := Ideal) x0 (View.ld x0 (Rect.unit (s := S1x2048x256) off S1x1024x256.size inb)) (ix3 u a j)
      = Cert.PairDist.distAt X b i j := by
  subst hoff
  rw [Body.pay_apply]
  unfold Cert.PairDist.distAt Cert.PairDist.sqNorm Cert.PairDist.inner
  have eb : ∀ k : Fin 256, View.ld x0 (Rect.unit (s := S1x2048x256) ![0, o, 0] S1x1024x256.size inb)
      (ix3 (0 : Fin 1) a k) = X (ix3 b i k) := fun k => by
    rw [← hx0 i k]
    show x0 _ = x0 _
    refine congrArg x0 (funext fun ax => Fin.ext ?_)
    match ax with
    | ⟨0, _⟩ => rfl
    | ⟨1, _⟩ => show o + 1 * a.val = i.val; omega
    | ⟨2, _⟩ => show 0 + 1 * k.val = k.val; omega
  refine congrArg₂ max (congrArg₂ (· - ·) (congrArg₂ (· + ·) ?_ ?_)
    (congrArg (Ideal.ofBits .f32 0x40000000#32 * ·) ?_)) rfl
  · exact Finset.sum_congr rfl fun k _ => by rw [eb k]
  · exact Finset.sum_congr rfl fun k _ => by rw [hx0 j k]
  · exact Finset.sum_congr rfl fun k _ => by rw [eb k, hx0 j k]

variable (m : (ℓ : Loc nD τ sig) → Buf (Elt Ideal) ℓ) (ρ : Dev nD → PrngReg)

/-- WHAT POINT `t` WRITES BACK is block `t` of the distance array of the argument: the block's entry `(a, j)` sits at row
    `1024 · (band number) + a` and column `j` of the table of the matrix the point holds, and there the body stored the
    distance between exactly those two rows. -/
theorem flushed_eq (c : Dev nD) (t : Fin cfg0.N) :
    (dats m 0 c).flushed 1 t
      = ((cfg0.win 1).blk t).view.read (Elt Ideal) (Cert.PairDist.dist (V m c main_arg0)) := by
  rw [Value.flushed1_A, out_eq]
  obtain ⟨e0, e1, e2, l0, l1, e3, eo⟩ := grid_facts t
  refine funext fun (y : S1x1024x2048.Idx) => ?_
  obtain ⟨u, a, j, rfl⟩ : ∃ (u : Fin 1) (a : Fin 1024) (j : Fin 2048), y = ix3 u a j := ⟨y 0, y 1, y 2, eq_ix3 y⟩
  show k0_pay1 (F := Ideal) (iblk m c 0 t) (View.ld (iblk m c 0 t) (Rect.unit (s := S1x2048x256)
      (k0_off1 (grid0.coords t)) S1x1024x256.size (k0_off1_inb (grid0.coords t)))) (ix3 u a j)
    = Cert.PairDist.dist (V m c main_arg0) (((cfg0.win 1).blk t).view.emb (ix3 u a j))
  have hu : u.val = 0 := by omega
  have hq : ((cfg0.win 1).blk t).view.emb (ix3 u a j)
      = ix3 (⟨win0_1.index t (0 : Fin 3), l0⟩ : Fin 8)
          (⟨1024 * win0_1.index t (1 : Fin 3) + a.val, by omega⟩ : Fin 2048) j := by
    funext ax; apply Fin.ext
    match ax with
    | ⟨0, _⟩ => show win0_1.index t (0 : Fin 3) * 1 + 1 * u.val = win0_1.index t (0 : Fin 3); omega
    | ⟨1, _⟩ => show win0_1.index t (1 : Fin 3) * 1024 + 1 * a.val = 1024 * win0_1.index t (1 : Fin 3) + a.val; omega
    | ⟨2, _⟩ => show win0_1.index t (2 : Fin 3) * 2048 + 1 * j.val = j.val; omega
  rw [hq, Cert.PairDist.dist_apply]
  refine point_value (V m c main_arg0) (iblk m c 0 t) ⟨win0_1.index t (0 : Fin 3), l0⟩ ?_
    (k0_off1 (grid0.coords t)) (k0_off1_inb (grid0.coords t)) (1024 * win0_1.index t (1 : Fin 3)) eo u a j _ rfl
  intro r k
  show V m c main_arg0 (((cfg0.win 0).blk t).view.emb (ix3 (0 : Fin 1) r k)) = V m c main_arg0 (ix3 _ r k)
  refine congrArg (V m c main_arg0) (funext fun ax => Fin.ext ?_)
  match ax with
  | ⟨0, _⟩ => show win0_0.index t (0 : Fin 3) * 1 + 1 * 0 = win0_1.index t (0 : Fin 3); omega
  | ⟨1, _⟩ => show win0_0.index t (1 : Fin 3) * 2048 + 1 * r.val = r.val; omega
  | ⟨2, _⟩ => show win0_0.index t (2 : Fin 3) * 256 + 1 * k.val = k.val; omega

/-- An index of the result array is in point `t`'s block iff each coordinate is in the block's range on its axis. -/
theorem mem_blk (t : Fin cfg0.N) (q : S8x2048x2048.Idx) :
    q ∈ ((cfg0.win 1).blk t).view.set ↔ ∀ ax : Fin 3, win0_1.index t ax * S1x1024x2048.size ax ≤ (q ax).val
      ∧ (q ax).val < win0_1.index t ax * S1x1024x2048.size ax + S1x1024x2048.size ax := by
  show q ∈ ((View.whole main_v0).slice (win0_1.rect t)).set ↔ _
  rw [View.set_slice_whole, Rect.mem_set_unit]
  exact Iff.rfl

/-- The sixteen blocks fill the result array: entry `(b, i, j)` lies in band `i / 1024` of matrix `b`'s table. -/
theorem covered (q : S8x2048x2048.Idx) :
    ∃ t : Fin cfg0.N, (cfg0.win 1).flush t = true ∧ q ∈ ((cfg0.win 1).blk t).view.set := by
  have h0 : (q 0).val < 8 := (q 0).isLt
  have h1 : (q 1).val < 2048 := (q 1).isLt
  have h2 : (q 2).val < 2048 := (q 2).isLt
  obtain ⟨t, ht⟩ := blocks_onto ⟨(q 0).val, h0⟩ ⟨(q 1).val / 1024, by omega⟩
  have q0 : win0_1.index t (0 : Fin 3) = (q 0).val := congrFun ht 0
  have q1 : win0_1.index t (1 : Fin 3) = (q 1).val / 1024 := congrFun ht 1
  have q2 : win0_1.index t (2 : Fin 3) = 0 := congrFun ht 2
  refine ⟨t, flush0_1 t, ?_⟩
  rw [mem_blk]
  intro ax
  match ax with
  | ⟨0, _⟩ =>
    show win0_1.index t (0 : Fin 3) * 1 ≤ (q 0).val ∧ (q 0).val < win0_1.index t (0 : Fin 3) * 1 + 1
    omega
  | ⟨1, _⟩ =>
    show win0_1.index t (1 : Fin 3) * 1024 ≤ (q 1).val ∧ (q 1).val < win0_1.index t (1 : Fin 3) * 1024 + 1024
    omega
  | ⟨2, _⟩ =>
    show win0_1.index t (2 : Fin 3) * 2048 ≤ (q 2).val ∧ (q 2).val < win0_1.index t (2 : Fin 3) * 2048 + 2048
    omega

/-- So after the run the result array holds the distance array of the argument. -/
theorem final (c : Dev nD) : (dats m 0 c).arrAt 1 cfg0.N = Cert.PairDist.dist (V m c main_arg0) :=
  (dats m 0 c).arrAt_eq_of_cover 1 (Cert.PairDist.dist (V m c main_arg0)) (fun t _ => flushed_eq m c t) covered

/-- The kernel's run, read: every weakly fair execution ends with the result array at the distance array of the
    argument as launched, and the argument unchanged. -/
theorem run : θ_run defs (onTc (τ := τ) (main (F := Ideal))) ⟨m, fun _ => 0, ρ⟩ fun r => ∀ c : Dev nD,
      r.2.mem ((c : Thread nD τ).loc main_v0) = Cert.PairDist.dist (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.DistValue

end
-- ==== Proof.RefDist.lean ====
/-
  The reference, operation by operation, is the array of clamped squared distances: its row sums of squares are the
  squared norms (each spread along one of the two row axes), its batched product contracted over a row's 256 entries the
  inner products, and the rest is the same sum, difference and clamp.
-/
import proofs.«110184_j67018669686961_2_alg».proof.Proof.Gen.ReferenceIdeal.Read
import proofs.«110184_j67018669686961_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The row whose squares the first spread norm sums at `(b, i, j)`: row `i` of matrix `b`. -/
theorem idx_left (b : Fin 8) (i j : Fin 2048) (k : Fin 256) :
    idx_main_v1 (idx_main_v3 (idx_main_v5 (ix3 b i j))) k = ix3 b i k :=
  funext fun a => Fin.ext (by match a with | ⟨0, _⟩ => rfl | ⟨1, _⟩ => rfl | ⟨2, _⟩ => rfl)

/-- The row whose squares the second spread norm sums at `(b, i, j)`: row `j` of matrix `b`. -/
theorem idx_right (b : Fin 8) (i j : Fin 2048) (k : Fin 256) :
    idx_main_v1 (idx_main_v4 (idx_main_v6 (ix3 b i j))) k = ix3 b j k :=
  funext fun a => Fin.ext (by match a with | ⟨0, _⟩ => rfl | ⟨1, _⟩ => rfl | ⟨2, _⟩ => rfl)

/-- The product's left factor at `(b, i, j)` and contraction coordinate `k`: entry `k` of row `i`. -/
theorem lidx_eq (b : Fin 8) (i j : Fin 2048) (k : Fin 256) : lidx_main_v2 (ix3 b i j) k = ix3 b i k :=
  funext fun a => Fin.ext (by match a with | ⟨0, _⟩ => rfl | ⟨1, _⟩ => rfl | ⟨2, _⟩ => rfl)

/-- The product's right factor at `(b, i, j)` and contraction coordinate `k`: entry `k` of row `j`. -/
theorem ridx_eq (b : Fin 8) (i j : Fin 2048) (k : Fin 256) : ridx_main_v2 (ix3 b i j) k = ix3 b j k :=
  funext fun a => Fin.ext (by match a with | ⟨0, _⟩ => rfl | ⟨1, _⟩ => rfl | ⟨2, _⟩ => rfl)

/-- The reference's result is the array of clamped squared distances. -/
theorem ref_eq_dist (x : (⟨S8x2048x256, .f32⟩ : BufTy).Contents (Elt Ideal)) :
    val_main_v12 (F := Ideal) x = Cert.PairDist.dist x := by
  funext q
  obtain ⟨b, i, j, rfl⟩ : ∃ (b : Fin 8) (i j : Fin 2048), q = ix3 b i j := ⟨q 0, q 1, q 2, eq_ix3 q⟩
  rw [Cert.PairDist.dist_apply]
  rw [val_main_v12_apply, val_main_v10_apply, val_main_v7_apply, val_main_v5_apply, val_main_v3_apply,
    val_main_v6_apply, val_main_v4_apply, val_main_v1_apply, val_main_v1_apply, val_main_v9_apply, val_main_v8_apply,
    val_main_cst_0_apply, val_main_v2_apply, val_main_v11_apply, val_main_cst_1_apply, val_main_cst_apply]
  unfold Cert.PairDist.distAt Cert.PairDist.sqNorm Cert.PairDist.inner
  have h0 : ∀ s : EReal, Ideal.ofBits .f32 0x00000000#32 + s = s := fun s => by rw [Ideal.ofBits_zero_f32, zero_add]
  refine congrArg₂ max (congrArg₂ (· - ·) (congrArg₂ (· + ·) ?_ ?_)
    (congrArg (Ideal.ofBits .f32 0x40000000#32 * ·) ?_)) rfl
  · exact (h0 _).trans (Finset.sum_congr rfl fun k _ => by rw [idx_left]; rfl)
  · exact (h0 _).trans (Finset.sum_congr rfl fun k _ => by rw [idx_right]; rfl)
  · exact Finset.sum_congr rfl fun k _ => by rw [lidx_eq, ridx_eq]

end Cert.ReferenceIdeal.RefValue

end
-- ==== Proof.lean ====
/-
  Pairwise squared Euclidean distances between the rows of each of eight 2048 × 256 matrices, in the expanded form
      d[b, i, j] = max ((‖x_i‖² + ‖x_j‖²) − 2 · ⟨x_i, x_j⟩) 0.

  The kernel walks a grid of 8 × 2 points. At point (b, h) it holds the whole matrix b, takes from it the band of rows
  1024·h … 1024·h + 1023, and writes the 1024 × 2048 band of matrix b's distance table: the band rows' squared norms as
  a column, all rows' squared norms as a row, and the product of the band with the whole matrix contracted over the 256
  entries of a row (its operands narrowed to sixteen bits, which on the extended reals changes nothing). The reference
  forms the same three ingredients for all rows at once — row sums of squares spread along either row axis, and a batched
  product contracted over a row's entries — and combines them by the same sum, difference, doubling and clamp.

  On the extended reals the two results are the same function of the argument, entry by entry, with no rearrangement of
  any sum: `Cert.PairDist.dist` (Proof/Spec.lean). The reference is that function operation by operation
  (Proof/RefDist.lean); one entry of one kernel block is that function at the entry's place in the table
  (Proof/Payload.lean, Proof/KernelDist.lean), and the sixteen blocks tile the table (Proof/KernelDist.lean). No law that
  needs finite entries is used, so the precondition is never opened. The ideal pass rewrote nothing in the kernel, so
  that conjunct is `True`.
-/
import proofs.«110184_j67018669686961_2_alg».proof.Defs
import proofs.«110184_j67018669686961_2_alg».proof.Proof.Gen.Kernel
import proofs.«110184_j67018669686961_2_alg».proof.Proof.Gen.Kernel.Skeleton
import proofs.«110184_j67018669686961_2_alg».proof.Proof.Gen.Kernel.Launch
import proofs.«110184_j67018669686961_2_alg».proof.Proof.Gen.Kernel.Points
import proofs.«110184_j67018669686961_2_alg».proof.Proof.Gen.Kernel.Frame
import proofs.«110184_j67018669686961_2_alg».proof.Proof.Gen.KernelIdeal
import proofs.«110184_j67018669686961_2_alg».proof.Proof.Gen.KernelIdeal.Skeleton
import proofs.«110184_j67018669686961_2_alg».proof.Proof.Gen.KernelIdeal.Launch
import proofs.«110184_j67018669686961_2_alg».proof.Proof.Gen.KernelIdeal.Points
import proofs.«110184_j67018669686961_2_alg».proof.Proof.Gen.KernelIdeal.Frame
import proofs.«110184_j67018669686961_2_alg».proof.Proof.Gen.ReferenceIdeal
import proofs.«110184_j67018669686961_2_alg».proof.Proof.Gen.Pre_finite_inputs
import proofs.«110184_j67018669686961_2_alg».proof.Proof.Gen.KernelIdeal.Value
import proofs.«110184_j67018669686961_2_alg».proof.Proof.Gen.ReferenceIdeal.Run
import proofs.«110184_j67018669686961_2_alg».proof.Proof.Gen.ReferenceIdeal.Read
import proofs.«110184_j67018669686961_2_alg».proof.Proof.KernelDist
import proofs.«110184_j67018669686961_2_alg».proof.Proof.RefDist
import Idealize.ShloMosaic.Adequacy
import Idealize.ShloMosaic.Init

noncomputable section

namespace Cert.Proof

open Idealize.ShloMosaic Idealize.ShloMosaic.TcCoe Idealize.SL.Sem

/-- The kernel as printed runs to the end without a fault and leaves its argument as it found it. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading on the extended reals. -/
theorem preserves : Cert.preserves_Kernel_KernelIdeal := trivial

/-- From arguments that agree, the kernel's result array and the reference's both end at the array of clamped squared
    distances of that argument. -/
theorem algebraic : Cert.algebraic_KernelIdeal_ReferenceIdeal := by
  intro m ρ m' ρ' _ hagree
  refine ⟨_, Cert.KernelIdeal.DistValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq_dist, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
